-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩

abbrev nBuf : Space → Nat
  | .hbm => 61
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S_, .f32⟩
  | .hbm, ⟨49, _⟩ => ⟨S600000, .f32⟩
  | .hbm, ⟨50, _⟩ => ⟨S_, .f32⟩
  | .hbm, ⟨51, _⟩ => ⟨S50000, .f32⟩
  | .hbm, ⟨52, _⟩ => ⟨S600000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S_, .f32⟩
  | .hbm, ⟨57, _⟩ => ⟨S600000, .f32⟩
  | .hbm, ⟨58, _⟩ => ⟨S_, .f32⟩
  | .hbm, ⟨59, _⟩ => ⟨S50000, .f32⟩
  | .hbm, ⟨60, _⟩ => ⟨S600000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LinearLayer.lean ====
/-
  One dense layer of the two-layer network, as a function of whole arrays read index by index on the extended reals.

  A layer takes the node features `x` (one row of 128 features per node), the neighbour means `mean` (same layout), two
  128 × 128 weight matrices and a bias row, and returns, at node `r` and output feature `q`,

      (∑ k, x r k · ws k q) + (∑ k, mean r k · wn k q) + b q,

  the two contractions grouped first and the bias added last. Everything here is stated for an arbitrary number of rows
  `n`, so that the same function describes a block of 5000 rows and the whole array of 50000 rows: row `r` of the result
  depends on row `r` of `x` and of `mean` only, which is what lets a row block be computed from the matching row blocks.
  The rectifier between the two layers is the pointwise maximum with zero.
-/
import Idealize.ShloMosaic.PureOps.Ideal
import Idealize.ShloMosaic.Lib.ValueIdx

noncomputable section

open scoped BigOperators

namespace Cert.Sage

open Idealize.ShloMosaic Idealize.ShloMosaic.ValueIdx

/-- Row `r` of `x` contracted with column `q` of `w` over the 128 features. -/
def rowDot {n : Nat} (x : (⟨2, ![n, 128]⟩ : Shape).Idx → EReal) (w : (⟨2, ![128, 128]⟩ : Shape).Idx → EReal)
    (r : Fin n) (q : Fin 128) : EReal :=
  ∑ k : Fin 128, x (ix2 r k) * w (ix2 k q)

/-- The layer at node `r`, output feature `q`: self term plus neighbour term, then the bias. -/
def linAt {n : Nat} (x mean : (⟨2, ![n, 128]⟩ : Shape).Idx → EReal) (ws wn : (⟨2, ![128, 128]⟩ : Shape).Idx → EReal)
    (b : (⟨1, ![128]⟩ : Shape).Idx → EReal) (r : Fin n) (q : Fin 128) : EReal :=
  rowDot x ws r q + rowDot mean wn r q + b (ix1 q)

/-- The layer as an array of `n` rows. -/
def lin {n : Nat} (x mean : (⟨2, ![n, 128]⟩ : Shape).Idx → EReal) (ws wn : (⟨2, ![128, 128]⟩ : Shape).Idx → EReal)
    (b : (⟨1, ![128]⟩ : Shape).Idx → EReal) : (⟨2, ![n, 128]⟩ : Shape).Idx → EReal :=
  fun i => linAt x mean ws wn b (i 0) (i 1)

theorem lin_ix2 {n : Nat} (x mean : (⟨2, ![n, 128]⟩ : Shape).Idx → EReal) (ws wn : (⟨2, ![128, 128]⟩ : Shape).Idx → EReal)
    (b : (⟨1, ![128]⟩ : Shape).Idx → EReal) (r : Fin n) (q : Fin 128) :
    lin x mean ws wn b (ix2 r q) = linAt x mean ws wn b r q := rfl

/-- The rectifier: the pointwise maximum with the float zero (kept as its word; the same word stands on both sides). -/
def relu {s : Shape} (v : s.Idx → EReal) : s.Idx → EReal :=
  fun i => max (v i) (Ideal.ofBits .f32 0x00000000#32)

theorem relu_apply {s : Shape} (v : s.Idx → EReal) (i : s.Idx) :
    relu v i = max (v i) (Ideal.ofBits .f32 0x00000000#32) := rfl

/-- A layer's row depends on the same row of its two row-wise operands only: if `x'`, `mean'` (of `n'` rows) carry at row
    `r'` what `x`, `mean` carry at row `r`, the two layers agree there. This is the fact behind computing the layer block
    of rows by block of rows. -/
theorem linAt_congr_rows {n n' : Nat} (x mean : (⟨2, ![n, 128]⟩ : Shape).Idx → EReal)
    (x' mean' : (⟨2, ![n', 128]⟩ : Shape).Idx → EReal) (ws wn : (⟨2, ![128, 128]⟩ : Shape).Idx → EReal)
    (b : (⟨1, ![128]⟩ : Shape).Idx → EReal) (r : Fin n) (r' : Fin n') (q : Fin 128)
    (hx : ∀ k : Fin 128, x' (ix2 r' k) = x (ix2 r k)) (hm : ∀ k : Fin 128, mean' (ix2 r' k) = mean (ix2 r k)) :
    linAt x' mean' ws wn b r' q = linAt x mean ws wn b r q := by
  unfold linAt rowDot
  simp only [hx, hm]

/-- BLOCKS OF ROWS. Let `j` be an index (row `p`, feature `q`) of a block of `n'` rows and `i` an index (row `r`, the same
    feature `q`) of the array of `n` rows. If the block operands `B0`, `B1` carry at row `p` what the array operands `A0`, `A1`
    carry at row `r`, and the weights and bias are the same functions, then the layer of the blocks at `j` is the layer of
    the arrays at `i`. (The coordinates are given by their values, so that the lemma meets an index of any spelling.) -/
theorem lin_eq_of_rows {n n' : Nat} (A0 A1 : (⟨2, ![n, 128]⟩ : Shape).Idx → EReal) (B0 B1 : (⟨2, ![n', 128]⟩ : Shape).Idx → EReal)
    (ws wn ws' wn' : (⟨2, ![128, 128]⟩ : Shape).Idx → EReal) (b b' : (⟨1, ![128]⟩ : Shape).Idx → EReal)
    (j : (⟨2, ![n', 128]⟩ : Shape).Idx) (i : (⟨2, ![n, 128]⟩ : Shape).Idx) (p : Fin n') (r : Fin n) (q : Fin 128)
    (hj0 : (j 0).val = p.val) (hj1 : (j 1).val = q.val) (hi0 : (i 0).val = r.val) (hi1 : (i 1).val = q.val)
    (h0 : ∀ k : Fin 128, B0 (ix2 p k) = A0 (ix2 r k)) (h1 : ∀ k : Fin 128, B1 (ix2 p k) = A1 (ix2 r k))
    (h2 : ∀ k c : Fin 128, ws' (ix2 k c) = ws (ix2 k c)) (h3 : ∀ k c : Fin 128, wn' (ix2 k c) = wn (ix2 k c))
    (h4 : ∀ c : Fin 128, b' (ix1 c) = b (ix1 c)) :
    lin B0 B1 ws' wn' b' j = lin A0 A1 ws wn b i := by
  have ej : j = ix2 p q := funext fun a => Fin.ext (by match a with | ⟨0, _⟩ => exact hj0 | ⟨1, _⟩ => exact hj1)
  have ei : i = ix2 r q := funext fun a => Fin.ext (by match a with | ⟨0, _⟩ => exact hi0 | ⟨1, _⟩ => exact hi1)
  rw [ej, ei, lin_ix2, lin_ix2]
  unfold linAt rowDot
  simp only [h0, h1, h2, h3, h4]

end Cert.Sage

end
-- ==== Proof.ReferenceLayers.lean ====
/-
  The reference program's result as two layers around the neighbour mean.

  The reference computes a layer on the host as  x·ws + mean·wn + b  with two `dot_general`s (contracting the 128 features),
  two additions and the bias row broadcast over the 50000 nodes. On the extended reals a `dot_general` read at (r, q) is the
  sum over the contracted feature of row r times column q, so this host expression is the layer `Cert.Sage.lin` at every
  index (`hostLin_eq`). The neighbour mean (gather the source rows, sum them per destination, divide by the in-degree
  clamped at one) is kept CLOSED as the function `mean`: the kernel computes it with the very same host operations, so
  nothing about it is needed beyond its being one function of (features, sources, destinations). The reference's result is
  then  layer₂ (h, mean h)  with  h = relu (layer₁ (x, mean x))  (`reference_value`).
-/
import proofs.«115748_j22832046146009_1_alg».proof.Proof.Gen.ReferenceIdeal.Read
import proofs.«115748_j22832046146009_1_alg».proof.Proof.LinearLayer
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Sage

/-- The neighbour mean of a feature array along the edges (sources `src`, destinations `dst`): the reference's own host
    operations, never opened. -/
abbrev mean (x : (⟨S50000x128, .f32⟩ : BufTy).Contents (Elt Ideal)) (src dst : (⟨S600000, .i32⟩ : BufTy).Contents (Elt Ideal)) :
    (⟨S50000x128, .f32⟩ : BufTy).Contents (Elt Ideal) :=
  val_main_v18 (F := Ideal) x src dst

/-- A layer as the reference's host operations spell it. -/
def hostLin (x mn : (⟨S50000x128, .f32⟩ : BufTy).Contents (Elt Ideal)) (ws wn : (⟨S128x128, .f32⟩ : BufTy).Contents (Elt Ideal))
    (b : (⟨S128, .f32⟩ : BufTy).Contents (Elt Ideal)) : (⟨S50000x128, .f32⟩ : BufTy).Contents (Elt Ideal) :=
  addf (F := Ideal) (s := S50000x128) (φ := .f32)
    (addf (F := Ideal) (s := S50000x128) (φ := .f32) (val_main_v19 (F := Ideal) x ws) (val_main_v19 (F := Ideal) mn wn))
    (val_main_v23 (F := Ideal) b)

/-- Index by index the host's layer is the layer: each `dot_general` is the row-by-column sum, the bias row broadcast reads
    the bias at the column. -/
theorem hostLin_eq (x mn : (⟨S50000x128, .f32⟩ : BufTy).Contents (Elt Ideal)) (ws wn : (⟨S128x128, .f32⟩ : BufTy).Contents (Elt Ideal))
    (b : (⟨S128, .f32⟩ : BufTy).Contents (Elt Ideal)) : hostLin x mn ws wn b = lin x mn ws wn b := by
  funext i
  obtain ⟨r, q, rfl⟩ : ∃ (r : Fin 50000) (q : Fin 128), i = ix2 r q := ⟨i 0, i 1, eq_ix2 i⟩
  have el : ∀ k : Fin 128, lidx_main_v19 (ix2 r q) k = ix2 r k := fun k =>
    funext fun a => Fin.ext (by match a with | ⟨0, _⟩ => rfl | ⟨1, _⟩ => rfl)
  have er : ∀ k : Fin 128, ridx_main_v19 (ix2 r q) k = ix2 k q := fun k =>
    funext fun a => Fin.ext (by match a with | ⟨0, _⟩ => rfl | ⟨1, _⟩ => rfl)
  have eb : idx_main_v22 (idx_main_v23 (ix2 r q)) = ix1 q :=
    funext fun a => Fin.ext (by match a with | ⟨0, _⟩ => rfl)
  unfold hostLin
  rw [lin_ix2, addf_apply, addf_apply, val_main_v19_apply, val_main_v19_apply, val_main_v23_apply, val_main_v22_apply]
  simp only [el, er, eb]
  rfl

/-- The whole network as one function of the nine arguments: the second layer of the hidden layer `h` and its neighbour mean,
    where `h` is the rectified first layer of the input features and their neighbour mean. -/
def network (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    (⟨S50000x128, .f32⟩ : BufTy).Contents (Elt Ideal) :=
  lin (relu (lin x0 (mean x0 x1 x2) x3 x4 x5)) (mean (relu (lin x0 (mean x0 x1 x2) x3 x4 x5)) x1 x2) x6 x7 x8

/-- The hidden layer as the reference computes it: the rectified first layer. -/
theorem hidden_value (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5 = relu (lin x0 (mean x0 x1 x2) x3 x4 x5) :=
  (show val_main_v25 (F := Ideal) x0 x1 x2 x3 x4 x5 = relu (hostLin x0 (mean x0 x1 x2) x3 x4 x5) from rfl).trans
    (by rw [hostLin_eq])

/-- The reference's result: the second layer of the hidden layer and its neighbour mean. -/
theorem reference_value (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v50 (F := Ideal) x0 x1 x2 x3 x4 x5 x6 x7 x8 = network x0 x1 x2 x3 x4 x5 x6 x7 x8 := by
  have h : val_main_v50 (F := Ideal) x0 x1 x2 x3 x4 x5 x6 x7 x8
      = hostLin (val_main_v25 (F := Ideal) x0 x1 x2 x3 x4 x5) (mean (val_main_v25 (F := Ideal) x0 x1 x2 x3 x4 x5) x1 x2) x6 x7 x8 := rfl
  rw [h, hostLin_eq, hidden_value]
  rfl

end Cert.ReferenceIdeal.RefValue

end
-- ==== Proof.KernelRun.lean ====
/-
  The idealized kernel's run, with every buffer of the final state named.

  @main is four segments: the host operations that form the first neighbour mean, the first pallas_call, the host
  operations that form the second neighbour mean, the second pallas_call. The thread state carried through the segments
  holds every unscoped buffer at the contents of the boundary reached; at the end these are the contents `W4` (the last
  boundary's: the second region's arrays at what its write-backs leave, every other buffer as the second host stretch left
  it). So every weakly fair execution terminates without a fault in a state whose every unscoped buffer holds `W4`: the
  frame claim reads only the nine arguments out of this, a value claim also reads the result buffer.
-/
import proofs.«115748_j22832046146009_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, and in the final state every unscoped buffer of every
    core holds the last boundary's contents. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.DensePayload.lean ====
/-
  What one call of the kernel body stores, read at an index of its block.

  At a grid point the body holds a block of 5000 rows of the node features, the same 5000 rows of the neighbour means, the
  two whole 128 × 128 weight matrices and the whole bias row. It rounds the four matrix operands to bf16 (the identity on
  the extended reals), multiplies features by the self weights and means by the neighbour weights, each product into a
  zero accumulator, adds the two products, and adds the bias row broadcast over the 5000 rows; the first layer's body
  then takes the maximum with zero. Read at row `p`, feature `q` of the block this is the layer `Cert.Sage.lin` of the five
  loaded blocks (for the first layer under `Cert.Sage.relu`): a matrix product into a zero accumulator is the plain sum
  over the contracted axis, and the bias row cast to one row and broadcast reads the bias at `q`.
-/
import proofs.«115748_j22832046146009_1_alg».proof.Proof.Gen.KernelIdeal.Skeleton
import proofs.«115748_j22832046146009_1_alg».proof.Proof.LinearLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Dense

open Cert.KernelIdeal Cert.KernelIdeal.Gen Idealize.ShloMosaic Idealize.ShloMosaic.ValueIdx Cert.Sage

/-! ## The matrix product's operand indices

The body's product contracts axis 1 of the left operand with axis 0 of the right one and has no batch axis: at output
index `i` and contraction index `c` the left operand is read at (row of `i`, `c`) and the right one at (`c`, column of `i`). -/

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_contr (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_contr (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a block of rows with a weight matrix, both rounded to bf16, into the zero accumulator, at row `p` and
    column `q`: the sum over the 128 contracted features of row `p` times column `q`. -/
theorem matmul_block_apply (a : Vec Ideal S5000x128 .f32) (w : Vec Ideal S128x128 .f32) (p : Fin 5000) (q : Fin 128) :
    matmul (F := Ideal) dot_S5000x128_S128x128_S5000x128_1_0_0_1_n_n none (truncf .bf16 a bitsLt_bf16_f32)
      (truncf .bf16 w bitsLt_bf16_f32) (constant S5000x128 .f32 0x00000000#32) (ix2 p q) = rowDot a w p q := by
  unfold rowDot
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact lhs_row _ _
      | ⟨1, _⟩ => exact (lhs_contr _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (rhs_contr _ _).trans hk
      | ⟨1, _⟩ => exact rhs_col _ _)
  rw [el, er]
  rfl

/-- The bias row, cast to one row and broadcast over the block's 5000 rows, reads the bias at the column. -/
theorem bias_block_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The second layer's body stores the layer of its five loaded blocks. -/
theorem pay_layer2 (x0 x1 : Vec Ideal S5000x128 .f32) (x2 x3 : Vec Ideal S128x128 .f32) (x4 : Vec Ideal S128 .f32) :
    k1_pay1 (F := Ideal) x0 x1 x2 x3 x4 = lin x0 x1 x2 x3 x4 := by
  funext j
  obtain ⟨p, q, rfl⟩ : ∃ (p : Fin 5000) (q : Fin 128), j = ix2 p q := ⟨j 0, j 1, eq_ix2 j⟩
  unfold k1_pay1
  rw [lin_ix2, addf_apply, addf_apply, bias_block_apply, shapeCast_self, shapeCast_self,
    matmul_block_apply, matmul_block_apply]
  rfl

/-- The first layer's body stores the rectified layer of its five loaded blocks. -/
theorem pay_layer1 (x0 x1 : Vec Ideal S5000x128 .f32) (x2 x3 : Vec Ideal S128x128 .f32) (x4 : Vec Ideal S128 .f32) :
    k0_pay1 (F := Ideal) x0 x1 x2 x3 x4 = relu (lin x0 x1 x2 x3 x4) := by
  funext j
  obtain ⟨p, q, rfl⟩ : ∃ (p : Fin 5000) (q : Fin 128), j = ix2 p q := ⟨j 0, j 1, eq_ix2 j⟩
  unfold k0_pay1
  rw [relu_apply, lin_ix2, maximumf_apply, addf_apply, addf_apply, bias_block_apply, shapeCast_self,
    matmul_block_apply, matmul_block_apply]
  rfl

end Cert.KernelIdeal.Dense

end
-- ==== Proof.RegionArrays.lean ====
/-
  Each pallas_call's output array as one function of the arrays the region finds.

  A region runs the dense body at ten grid points. Point `t` is handed rows 5000·t … 5000·t + 4999 of the node features and
  of the neighbour means, the whole weight matrices and the whole bias, and writes rows 5000·t … 5000·t + 4999 of the
  output. Since a layer's row depends only on the same row of the features and the means (`Cert.Sage.lin_eq_of_rows`), what
  point `t` writes back is block `t` of the layer of the WHOLE arrays; the ten blocks tile the 50000 rows, so after the
  region the output array is that layer — rectified in the first region, plain in the second. Everything is stated at a
  parameter `V`, the buffer contents when the region is entered.
-/
import proofs.«115748_j22832046146009_1_alg».proof.Proof.Gen.KernelIdeal.Frame
import proofs.«115748_j22832046146009_1_alg».proof.Proof.DensePayload
import proofs.«115748_j22832046146009_1_alg».proof.Proof.LinearLayer
import Idealize.ShloMosaic.Lib.Pipeline.Value
import Idealize.ShloMosaic.Lib.ValueIdx

-- membership in a rectangle of these extents: the elaborator's structural look recurses once per coordinate of the long axis
set_option maxRecDepth 16384

noncomputable section

namespace Cert.KernelIdeal.Blocks

open Cert.KernelIdeal Cert.KernelIdeal.Gen Cert.KernelIdeal.Dense Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-! ## Layer 1: the pallas_call of region 0 -/

/-- What the body leaves in the output block's buffer is the rectified layer of the five input blocks: its one store covers
    the whole buffer and its loads read the whole buffers. -/
theorem out0_eq (x0 x1 : Vec Ideal S5000x128 .f32) (x2 x3 : Vec Ideal S128x128 .f32) (x4 : Vec Ideal S128 .f32) :
    out0_5 (F := Ideal) x0 x1 x2 x3 x4 = relu (lin x0 x1 x2 x3 x4) := by
  unfold out0_5
  rw [View.canon_unit_zero off2]
  simp only [View.ld_unit_zero (S := S5000x128) off2, View.ld_unit_zero (S := S128x128) off2, View.ld_unit_zero (S := S128) off1]
  exact pay_layer1 x0 x1 x2 x3 x4

/-- The printed index maps, decided over the ten grid points: the two row-block inputs move with the output along the rows
    and sit at column block 0; the weights and the bias are their whole arrays at every point; the output's row block is
    the point's number, at most 9. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) ≤ 9 ∧ win0_5.index t (1 : Fin 2) = 0 :=
  (by decide +kernel : ∀ t : Fin grid0.N, _)

/-- Every one of the ten row blocks is some point's output block. -/
theorem idx_onto0 : ∀ q0 : Fin 10, ∃ t : Fin cfg0.N, win0_5.index t = ![q0.val, 0] :=
  (by decide +kernel : ∀ q0 : Fin 10, ∃ t : Fin grid0.N, win0_5.index t = ![q0.val, 0])

/-- WHAT POINT `t` WRITES BACK is block `t` of the rectified layer of the five arrays as the region finds them: row `p` of
    the block is row `5000·t + p` of the arrays, and a layer's row depends on that row of the features and the means only. -/
theorem flushed0_eq (c : Dev nD) (t : Fin cfg0.N) :
    (dat0 V c).flushed 5 t = ((cfg0.win 5).blk t).view.read (Elt Ideal) (relu (lin (V c main_arg0) (V c main_v18) (V c main_arg3) (V c main_arg4) (V c main_arg5))) := by
  show (cfg0.win 5).cut (grid0.coords t) ((dat0 V c).after 5 t) = _
  rw [after0_5, out0_eq (iblk0 V c 0 t) (iblk0 V c 1 t) (iblk0 V c 2 t) (iblk0 V c 3 t) (iblk0 V c 4 t)]
  obtain ⟨e00, e01, e10, e11, e20, e21, e30, e31, e40, e5le, e51⟩ := idx0 t
  funext j
  have hp : (j 0).val < 5000 := (j 0).isLt
  have hq : (j 1).val < 128 := (j 1).isLt
  have hr : win0_5.index t (0 : Fin 2) * 5000 + (j 0).val < 50000 := by omega
  show (relu (lin (iblk0 V c 0 t) (iblk0 V c 1 t) (iblk0 V c 2 t) (iblk0 V c 3 t) (iblk0 V c 4 t))) j = (relu (lin (V c main_arg0) (V c main_v18) (V c main_arg3) (V c main_arg4) (V c main_arg5))) (((cfg0.win 5).blk t).view.emb j)
  rw [relu_apply, relu_apply]
  refine congrArg (fun z => max z (Ideal.ofBits .f32 0x00000000#32)) ?_
  refine lin_eq_of_rows (n := 50000) (n' := 5000) (V c main_arg0) (V c main_v18) (iblk0 V c 0 t) (iblk0 V c 1 t) (V c main_arg3) (V c main_arg4) (iblk0 V c 2 t) (iblk0 V c 3 t)
    (V c main_arg5) (iblk0 V c 4 t) j (((cfg0.win 5).blk t).view.emb j) ⟨(j 0).val, hp⟩ ⟨win0_5.index t (0 : Fin 2) * 5000 + (j 0).val, hr⟩ ⟨(j 1).val, hq⟩
    rfl rfl ?_ ?_ (fun k => ?_) (fun k => ?_) (fun k q' => ?_) (fun k q' => ?_) (fun q' => ?_)
  · show win0_5.index t (0 : Fin 2) * 5000 + 1 * (j 0).val = win0_5.index t (0 : Fin 2) * 5000 + (j 0).val; omega
  · show win0_5.index t (1 : Fin 2) * 128 + 1 * (j 1).val = (j 1).val; omega
  · show V c main_arg0 (((cfg0.win 0).blk t).view.emb (ix2 (⟨(j 0).val, hp⟩ : Fin 5000) k)) = V c main_arg0 (ix2 (⟨win0_5.index t (0 : Fin 2) * 5000 + (j 0).val, hr⟩ : Fin 50000) k)
    refine congrArg (V c main_arg0) (funext fun a => Fin.ext ?_)
    match a with
    | ⟨0, _⟩ => show win0_0.index t (0 : Fin 2) * 5000 + 1 * (j 0).val = win0_5.index t (0 : Fin 2) * 5000 + (j 0).val; omega
    | ⟨1, _⟩ => show win0_0.index t (1 : Fin 2) * 128 + 1 * k.val = k.val; omega
  · show V c main_v18 (((cfg0.win 1).blk t).view.emb (ix2 (⟨(j 0).val, hp⟩ : Fin 5000) k)) = V c main_v18 (ix2 (⟨win0_5.index t (0 : Fin 2) * 5000 + (j 0).val, hr⟩ : Fin 50000) k)
    refine congrArg (V c main_v18) (funext fun a => Fin.ext ?_)
    match a with
    | ⟨0, _⟩ => show win0_1.index t (0 : Fin 2) * 5000 + 1 * (j 0).val = win0_5.index t (0 : Fin 2) * 5000 + (j 0).val; omega
    | ⟨1, _⟩ => show win0_1.index t (1 : Fin 2) * 128 + 1 * k.val = k.val; omega
  · show V c main_arg3 (((cfg0.win 2).blk t).view.emb (ix2 k q')) = V c main_arg3 (ix2 k q')
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q'.val = q'.val; omega
  · show V c main_arg4 (((cfg0.win 3).blk t).view.emb (ix2 k q')) = V c main_arg4 (ix2 k q')
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * q'.val = q'.val; omega
  · show V c main_arg5 (((cfg0.win 4).blk t).view.emb (ix1 q')) = V c main_arg5 (ix1 q')
    refine congrArg (V c main_arg5) (funext fun a => Fin.ext ?_)
    match a with
    | ⟨0, _⟩ => show win0_4.index t (0 : Fin 1) * 128 + 1 * q'.val = q'.val; omega

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- The ten output blocks tile the array: row `r` is in the block of point `r / 5000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the rectified layer of the five arrays as the region finds them. -/
theorem final0 (c : Dev nD) :
    (dat0 V c).arrAt 5 cfg0.N = relu (lin (V c main_arg0) (V c main_v18) (V c main_arg3) (V c main_arg4) (V c main_arg5)) :=
  (dat0 V c).arrAt_eq_of_cover 5 _ (fun t _ => flushed0_eq V c t) (cover0)

/-! ## Layer 2: the pallas_call of region 1 -/

/-- What the body leaves in the output block's buffer is the layer of the five input blocks: its one store covers
    the whole buffer and its loads read the whole buffers. -/
theorem out1_eq (x0 x1 : Vec Ideal S5000x128 .f32) (x2 x3 : Vec Ideal S128x128 .f32) (x4 : Vec Ideal S128 .f32) :
    out1_5 (F := Ideal) x0 x1 x2 x3 x4 = lin x0 x1 x2 x3 x4 := by
  unfold out1_5
  rw [View.canon_unit_zero off2]
  simp only [View.ld_unit_zero (S := S5000x128) off2, View.ld_unit_zero (S := S128x128) off2, View.ld_unit_zero (S := S128) off1]
  exact pay_layer2 x0 x1 x2 x3 x4

/-- The printed index maps, decided over the ten grid points: the two row-block inputs move with the output along the rows
    and sit at column block 0; the weights and the bias are their whole arrays at every point; the output's row block is
    the point's number, at most 9. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) ≤ 9 ∧ win1_5.index t (1 : Fin 2) = 0 :=
  (by decide +kernel : ∀ t : Fin grid1.N, _)

/-- Every one of the ten row blocks is some point's output block. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- WHAT POINT `t` WRITES BACK is block `t` of the layer of the five arrays as the region finds them: row `p` of
    the block is row `5000·t + p` of the arrays, and a layer's row depends on that row of the features and the means only. -/
theorem flushed1_eq (c : Dev nD) (t : Fin cfg1.N) :
    (dat1 V c).flushed 5 t = ((cfg1.win 5).blk t).view.read (Elt Ideal) (lin (V c main_v19) (V c main_v38) (V c main_arg6) (V c main_arg7) (V c main_arg8)) := by
  show (cfg1.win 5).cut (grid1.coords t) ((dat1 V c).after 5 t) = _
  rw [after1_5, out1_eq (iblk1 V c 0 t) (iblk1 V c 1 t) (iblk1 V c 2 t) (iblk1 V c 3 t) (iblk1 V c 4 t)]
  obtain ⟨e00, e01, e10, e11, e20, e21, e30, e31, e40, e5le, e51⟩ := idx1 t
  funext j
  have hp : (j 0).val < 5000 := (j 0).isLt
  have hq : (j 1).val < 128 := (j 1).isLt
  have hr : win1_5.index t (0 : Fin 2) * 5000 + (j 0).val < 50000 := by omega
  show (lin (iblk1 V c 0 t) (iblk1 V c 1 t) (iblk1 V c 2 t) (iblk1 V c 3 t) (iblk1 V c 4 t)) j = (lin (V c main_v19) (V c main_v38) (V c main_arg6) (V c main_arg7) (V c main_arg8)) (((cfg1.win 5).blk t).view.emb j)
  refine lin_eq_of_rows (n := 50000) (n' := 5000) (V c main_v19) (V c main_v38) (iblk1 V c 0 t) (iblk1 V c 1 t) (V c main_arg6) (V c main_arg7) (iblk1 V c 2 t) (iblk1 V c 3 t)
    (V c main_arg8) (iblk1 V c 4 t) j (((cfg1.win 5).blk t).view.emb j) ⟨(j 0).val, hp⟩ ⟨win1_5.index t (0 : Fin 2) * 5000 + (j 0).val, hr⟩ ⟨(j 1).val, hq⟩
    rfl rfl ?_ ?_ (fun k => ?_) (fun k => ?_) (fun k q' => ?_) (fun k q' => ?_) (fun q' => ?_)
  · show win1_5.index t (0 : Fin 2) * 5000 + 1 * (j 0).val = win1_5.index t (0 : Fin 2) * 5000 + (j 0).val; omega
  · show win1_5.index t (1 : Fin 2) * 128 + 1 * (j 1).val = (j 1).val; omega
  · show V c main_v19 (((cfg1.win 0).blk t).view.emb (ix2 (⟨(j 0).val, hp⟩ : Fin 5000) k)) = V c main_v19 (ix2 (⟨win1_5.index t (0 : Fin 2) * 5000 + (j 0).val, hr⟩ : Fin 50000) k)
    refine congrArg (V c main_v19) (funext fun a => Fin.ext ?_)
    match a with
    | ⟨0, _⟩ => show win1_0.index t (0 : Fin 2) * 5000 + 1 * (j 0).val = win1_5.index t (0 : Fin 2) * 5000 + (j 0).val; omega
    | ⟨1, _⟩ => show win1_0.index t (1 : Fin 2) * 128 + 1 * k.val = k.val; omega
  · show V c main_v38 (((cfg1.win 1).blk t).view.emb (ix2 (⟨(j 0).val, hp⟩ : Fin 5000) k)) = V c main_v38 (ix2 (⟨win1_5.index t (0 : Fin 2) * 5000 + (j 0).val, hr⟩ : Fin 50000) k)
    refine congrArg (V c main_v38) (funext fun a => Fin.ext ?_)
    match a with
    | ⟨0, _⟩ => show win1_1.index t (0 : Fin 2) * 5000 + 1 * (j 0).val = win1_5.index t (0 : Fin 2) * 5000 + (j 0).val; omega
    | ⟨1, _⟩ => show win1_1.index t (1 : Fin 2) * 128 + 1 * k.val = k.val; omega
  · show V c main_arg6 (((cfg1.win 2).blk t).view.emb (ix2 k q')) = V c main_arg6 (ix2 k q')
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * q'.val = q'.val; omega
  · show V c main_arg7 (((cfg1.win 3).blk t).view.emb (ix2 k q')) = V c main_arg7 (ix2 k q')
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * q'.val = q'.val; omega
  · show V c main_arg8 (((cfg1.win 4).blk t).view.emb (ix1 q')) = V c main_arg8 (ix1 q')
    refine congrArg (V c main_arg8) (funext fun a => Fin.ext ?_)
    match a with
    | ⟨0, _⟩ => show win1_4.index t (0 : Fin 1) * 128 + 1 * q'.val = q'.val; omega

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The ten output blocks tile the array: row `r` is in the block of point `r / 5000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer of the five arrays as the region finds them. -/
theorem final1 (c : Dev nD) :
    (dat1 V c).arrAt 5 cfg1.N = lin (V c main_v19) (V c main_v38) (V c main_arg6) (V c main_arg7) (V c main_arg8) :=
  (dat1 V c).arrAt_eq_of_cover 5 _ (fun t _ => flushed1_eq V c t) (cover1)

end Cert.KernelIdeal.Blocks

end
-- ==== Proof.KernelValue.lean ====
/-
  The idealized kernel's result as the network of its nine arguments.

  Reading the final contents at the result buffer backwards through @main:
    • the result is the second region's output array: the layer of what that region finds in its five arrays;
    • of those, the features are the first region's output, untouched by the host operations in between; the means are those
      host operations' result, the neighbour mean of the first region's output along the edge lists; the weights and the
      bias are launch arguments no segment writes;
    • the first region's output is the rectified layer of what IT finds: the input features, their neighbour mean (the first
      host stretch's result) and the first layer's weights and bias.
  The neighbour mean is the same closed function on both sides (the kernel's host operations are, operation for operation,
  the reference's), so the result is `Cert.ReferenceIdeal.RefValue.network` of the launch arguments.
-/
import proofs.«115748_j22832046146009_1_alg».proof.Proof.KernelRun
import proofs.«115748_j22832046146009_1_alg».proof.Proof.RegionArrays
import proofs.«115748_j22832046146009_1_alg».proof.Proof.ReferenceLayers
import Idealize.ShloMosaic.Lib.StableHlo.Run

set_option maxRecDepth 16384

noncomputable section

namespace Cert.KernelIdeal.Whole

open Cert.KernelIdeal Cert.KernelIdeal.Gen Cert.KernelIdeal.Blocks Cert.Sage
open Idealize.ShloMosaic Idealize.ShloMosaic.TcCoe Idealize.SL.Sem Idealize.ShloMosaic.StableHlo
open Cert.ReferenceIdeal.RefValue (mean network)

variable (m : (ℓ : Loc nD τ sig) → Buf (Elt Ideal) ℓ) (ρ : Dev nD → PrngReg)

/-! ## What the first region finds: the launch arguments, and the input's neighbour mean -/

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl
theorem V1_arg5 (c : Dev nD) : V1 m ρ c main_arg5 = m ((c : Thread nD τ).loc main_arg5) := by
  show StableHlo.after hostOps0 (W0 m ρ c) (Proc.devRef .tc main_arg5) = _
  after_results_simp <;> rfl

set_option maxHeartbeats 4000000 in
/-- The first host stretch leaves the neighbour mean of the input features in the first region's second window. -/
theorem V1_mean (c : Dev nD) :
    V1 m ρ c main_v18 = mean (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-! ## After the first region: the hidden layer; the arguments untouched -/

/-- The first region's output array is the hidden layer. -/
theorem W2_hidden (c : Dev nD) :
    W2 m ρ c (Proc.devRef .tc main_v19) = relu (lin (m ((c : Thread nD τ).loc main_arg0)) (mean (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) := by
  have h := (W2_arr m ρ c 5).trans (final0 (V1 m ρ) c)
  rw [V1_arg0, V1_mean, V1_arg3, V1_arg4, V1_arg5] at h
  exact h

theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp <;> rfl
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp <;> rfl
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl

/-! ## What the second region finds -/

/-- The second host stretch does not write the hidden layer. -/
theorem V3_hidden (c : Dev nD) : V3 m ρ c main_v19 = relu (lin (m ((c : Thread nD τ).loc main_arg0)) (mean (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) :=
  (show V3 m ρ c main_v19 = W2 m ρ c (Proc.devRef .tc main_v19) from by
    show StableHlo.after hostOps1 (W2 m ρ c) (Proc.devRef .tc main_v19) = _
    after_results_simp).trans (W2_hidden m ρ c)

set_option maxHeartbeats 4000000 in
/-- The second host stretch leaves the neighbour mean of the hidden layer in the second region's second window. -/
theorem V3_mean (c : Dev nD) :
    V3 m ρ c main_v38 = mean (relu (lin (m ((c : Thread nD τ).loc main_arg0)) (mean (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)))) (m ((c : Thread nD τ).loc main_arg1)) (m ((c : Thread nD τ).loc main_arg2)) := by
  have h : V3 m ρ c main_v38 = mean (W2 m ρ c (Proc.devRef .tc main_v19)) (W2 m ρ c (Proc.devRef .tc main_arg1)) (W2 m ρ c (Proc.devRef .tc main_arg2)) := by
    show StableHlo.after hostOps1 (W2 m ρ c) (Proc.devRef .tc main_v38) = _
    after_results_simp
    rfl
  rw [W2_hidden, W2_arg1, W2_arg2] at h
  exact h

theorem V3_arg6 (c : Dev nD) : V3 m ρ c main_arg6 = m ((c : Thread nD τ).loc main_arg6) :=
  (show V3 m ρ c main_arg6 = W2 m ρ c (Proc.devRef .tc main_arg6) from by
    show StableHlo.after hostOps1 (W2 m ρ c) (Proc.devRef .tc main_arg6) = _
    after_results_simp).trans (W2_arg6 m ρ c)
theorem V3_arg7 (c : Dev nD) : V3 m ρ c main_arg7 = m ((c : Thread nD τ).loc main_arg7) :=
  (show V3 m ρ c main_arg7 = W2 m ρ c (Proc.devRef .tc main_arg7) from by
    show StableHlo.after hostOps1 (W2 m ρ c) (Proc.devRef .tc main_arg7) = _
    after_results_simp).trans (W2_arg7 m ρ c)
theorem V3_arg8 (c : Dev nD) : V3 m ρ c main_arg8 = m ((c : Thread nD τ).loc main_arg8) :=
  (show V3 m ρ c main_arg8 = W2 m ρ c (Proc.devRef .tc main_arg8) from by
    show StableHlo.after hostOps1 (W2 m ρ c) (Proc.devRef .tc main_arg8) = _
    after_results_simp).trans (W2_arg8 m ρ c)

/-! ## The result -/

/-- The last boundary's contents at the result buffer: the network of the launch arguments. -/
theorem W4_result (c : Dev nD) :
    W4 m ρ c (Proc.devRef .tc main_v39) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := (W4_arr m ρ c 5).trans (final1 (V3 m ρ) c)
  rw [V3_hidden, V3_mean, V3_arg6, V3_arg7, V3_arg8] at h
  exact h

/-- THE RUN, READ: every weakly fair execution of the idealized kernel terminates, nothing faulting, with the result buffer at
    the network of the launch arguments and the nine arguments unchanged. -/
theorem run_value : θ_run defs (onTc (τ := τ) (main (F := Ideal))) ⟨m, fun _ => 0, ρ⟩ (fun r => ∀ c : Dev nD,
      r.2.mem ((c : Thread nD τ).loc main_v39) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c =>
    ⟨(h c _ (mem_uc main_v39 (by decide))).trans (W4_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩)
    (run_ends m ρ)

end Cert.KernelIdeal.Whole

end
-- ==== Proof.lean ====
/-
  A two-layer graph network with mean aggregation: the Pallas kernel against its jnp reference, on the extended reals.

  Both programs compute, for node features `x` (50000 × 128), edge lists `src`, `dst` (600000 edges) and per-layer weights,

      h   = max (x·Ws₁ + mean(x)·Wn₁ + b₁, 0)
      out =      h·Ws₂ + mean(h)·Wn₂ + b₂

  where `mean(v)` gathers the source rows of `v`, sums them per destination node and divides by the in-degree clamped at one.
  The kernel forms `mean` with host operations and runs each dense layer as a pallas_call over ten blocks of 5000 rows,
  rounding the matrix operands to bf16 (the identity on the extended reals) and accumulating each product from zero; the
  reference forms the same `mean` with the same host operations and each layer with two `dot_general`s.

  The proof: a dense layer's row depends only on the same row of the features and the means, so the ten row blocks a
  pallas_call writes are the blocks of the layer of the whole arrays, and they tile the 50000 rows (`RegionArrays`); a
  matrix product into a zero accumulator and a `dot_general` are both the plain sum over the contracted feature
  (`DensePayload`, `ReferenceLayers`); the neighbour mean is the same closed function on both sides. Reading the kernel's
  final state back through its four segments gives the network of the launch arguments (`KernelValue`), which is what the
  reference's run gives (`ReferenceLayers`). No step uses finiteness of the inputs: only sums of products are compared, term
  by term, and no sum is regrouped. The idealization rewrote no operation, so the kernel's idealized text is its own text.
-/
import proofs.«115748_j22832046146009_1_alg».proof.Defs
import proofs.«115748_j22832046146009_1_alg».proof.Proof.Gen.Kernel
import proofs.«115748_j22832046146009_1_alg».proof.Proof.Gen.Kernel.Skeleton
import proofs.«115748_j22832046146009_1_alg».proof.Proof.Gen.Kernel.Launch
import proofs.«115748_j22832046146009_1_alg».proof.Proof.Gen.Kernel.Points
import proofs.«115748_j22832046146009_1_alg».proof.Proof.Gen.Kernel.Frame
import proofs.«115748_j22832046146009_1_alg».proof.Proof.Gen.KernelIdeal
import proofs.«115748_j22832046146009_1_alg».proof.Proof.Gen.KernelIdeal.Skeleton
import proofs.«115748_j22832046146009_1_alg».proof.Proof.Gen.KernelIdeal.Launch
import proofs.«115748_j22832046146009_1_alg».proof.Proof.Gen.KernelIdeal.Points
import proofs.«115748_j22832046146009_1_alg».proof.Proof.Gen.KernelIdeal.Frame
import proofs.«115748_j22832046146009_1_alg».proof.Proof.Gen.ReferenceIdeal
import proofs.«115748_j22832046146009_1_alg».proof.Proof.Gen.Pre_finite_inputs
import proofs.«115748_j22832046146009_1_alg».proof.Proof.Gen.ReferenceIdeal.Run
import proofs.«115748_j22832046146009_1_alg».proof.Proof.Gen.ReferenceIdeal.Read
import proofs.«115748_j22832046146009_1_alg».proof.Proof.ReferenceLayers
import proofs.«115748_j22832046146009_1_alg».proof.Proof.KernelValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the nine arguments both programs end with the network of those arguments in their result. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8⟩ := hagree c
  rw [Cert.ReferenceIdeal.Read.val_main_v50_eq, Cert.ReferenceIdeal.RefValue.reference_value, g0, g1, g2, g3, g4, g5, g6, g7, g8]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
